-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S128 : S_.BroadcastsInDim S128 (![] : Fin 0 → Fin S128.rank)
  reducesTo_S128_S_d0 : S128.ReducesTo [0] S_
  bcast_S_S121x128 : S_.BroadcastsInDim S121x128 (![] : Fin 0 → Fin S121x128.rank)
  reducesTo_S121x128_S_d0_1 : S121x128.ReducesTo [0, 1] S_
  bcast_S_S121 : S_.BroadcastsInDim S121 (![] : Fin 0 → Fin S121.rank)
  reducesTo_S121_S_d0 : S121.ReducesTo [0] S_

variable [Facts]

def fn_part1 {F : FTy → Type} [FloatOps F] (main_arg5 : FVec F S121x128 .f32) (main_arg6 : FVec F S121x128 .f32) (main_arg7 : FVec F S121 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S121x128 .f32 := Host.absf main_arg5
  let main_cst_6 : FVec F S_ .f32 := constant S_ .f32 0x7F800000#32
  let main_v20 : FVec F S121x128 .f32 := broadcastInDim S121x128 ![] bcast_S_S121x128 main_cst_6
  let main_v21 : IVec S121x128 1 := cmpf .olt main_v19 main_v20
  let main_c_7 : IVec S_ 1 := constantI S_ 1 1#1
  let main_v22 : IVec S_ 1 := (fun x v => Host.reduce IntOp.andi x v reducesTo_S121x128_S_d0_1 h_S_) main_v21 main_c_7
  let main_v23 : IVec S_ 1 := andi main_v18 main_v22
  let main_v24 : FVec F S121x128 .f32 := Host.absf main_arg6
  let main_cst_8 : FVec F S_ .f32 := constant S_ .f32 0x7F800000#32
  let main_v25 : FVec F S121x128 .f32 := broadcastInDim S121x128 ![] bcast_S_S121x128 main_cst_8
  let main_v26 : IVec S121x128 1 := cmpf .olt main_v24 main_v25
  let main_c_9 : IVec S_ 1 := constantI S_ 1 1#1
  let main_v27 : IVec S_ 1 := (fun x v => Host.reduce IntOp.andi x v reducesTo_S121x128_S_d0_1 h_S_) main_v26 main_c_9
  let main_v28 : IVec S_ 1 := andi main_v23 main_v27
  let main_v29 : FVec F S121 .f32 := Host.absf main_arg7
  let main_cst_10 : FVec F S_ .f32 := constant S_ .f32 0x7F800000#32
  let main_v30 : FVec F S121 .f32 := broadcastInDim S121 ![] bcast_S_S121 main_cst_10
  let main_v31 : IVec S121 1 := cmpf .olt main_v29 main_v30
  let main_c_11 : IVec S_ 1 := constantI S_ 1 1#1
  let main_v32 : IVec S_ 1 := (fun x v => Host.reduce IntOp.andi x v reducesTo_S121_S_d0 h_S_) main_v31 main_c_11
  let main_v33 : IVec S_ 1 := andi main_v28 main_v32
  main_v33

def fn {F : FTy → Type} [FloatOps F] (main_arg0 : FVec F S100000x64 .f32) (main_arg1 : IVec S2x640000 32) (main_arg2 : FVec F S128x64 .f32) (main_arg3 : FVec F S128x64 .f32) (main_arg4 : FVec F S128 .f32) (main_arg5 : FVec F S121x128 .f32) (main_arg6 : FVec F S121x128 .f32) (main_arg7 : FVec F S121 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S1x640000 : Shape := ⟨2, ![1, 640000]⟩
abbrev S640000 : Shape := ⟨1, ![640000]⟩
abbrev S_ : Shape := ⟨0, ![]⟩
abbrev S100000 : Shape := ⟨1, ![100000]⟩
abbrev S640000x1 : Shape := ⟨2, ![640000, 1]⟩
abbrev S100000x1 : Shape := ⟨2, ![100000, 1]⟩
abbrev S640000x64 : Shape := ⟨2, ![640000, 64]⟩
abbrev S100000x128 : Shape := ⟨2, ![100000, 128]⟩
abbrev S4000x64 : Shape := ⟨2, ![4000, 64]⟩
abbrev S4000x1 : Shape := ⟨2, ![4000, 1]⟩
abbrev S4000x128 : Shape := ⟨2, ![4000, 128]⟩
abbrev S64x128 : Shape := ⟨2, ![64, 128]⟩
abbrev S1x128 : Shape := ⟨2, ![1, 128]⟩
abbrev S640000x128 : Shape := ⟨2, ![640000, 128]⟩
abbrev S128x128 : Shape := ⟨2, ![128, 128]⟩
abbrev S100000x121 : Shape := ⟨2, ![100000, 121]⟩

abbrev nBuf : Space → Nat
  | .hbm => 66
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S2x640000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S121x128, .f32⟩
  | .hbm, ⟨6, _⟩ => ⟨S121x128, .f32⟩
  | .hbm, ⟨7, _⟩ => ⟨S121, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .f32⟩
  | .hbm, ⟨13, _⟩ => ⟨S640000, .f32⟩
  | .hbm, ⟨14, _⟩ => ⟨S_, .f32⟩
  | .hbm, ⟨15, _⟩ => ⟨S100000, .f32⟩
  | .hbm, ⟨16, _⟩ => ⟨S640000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x64, .bf16⟩
  | .hbm, ⟨26, _⟩ => ⟨S_, .i32⟩
  | .hbm, ⟨27, _⟩ => ⟨S640000, .i32⟩
  | .hbm, ⟨28, _⟩ => ⟨S640000, .i1⟩
  | .hbm, ⟨29, _⟩ => ⟨S_, .i32⟩
  | .hbm, ⟨30, _⟩ => ⟨S640000, .i32⟩
  | .hbm, ⟨31, _⟩ => ⟨S640000, .i32⟩
  | .hbm, ⟨32, _⟩ => ⟨S640000, .i32⟩
  | .hbm, ⟨33, _⟩ => ⟨S640000x1, .i32⟩
  | .hbm, ⟨34, _⟩ => ⟨S640000x64, .bf16⟩
  | .hbm, ⟨35, _⟩ => ⟨S640000x64, .f32⟩
  | .hbm, ⟨36, _⟩ => ⟨S_, .f32⟩
  | .hbm, ⟨37, _⟩ => ⟨S100000x64, .f32⟩
  | .hbm, ⟨38, _⟩ => ⟨S640000x1, .i32⟩
  | .hbm, ⟨39, _⟩ => ⟨S100000x64, .f32⟩
  | .hbm, ⟨40, _⟩ => ⟨S100000x128, .bf16⟩
  | .hbm, ⟨41, _⟩ => ⟨S_, .i32⟩
  | .hbm, ⟨42, _⟩ => ⟨S640000, .i32⟩
  | .hbm, ⟨43, _⟩ => ⟨S640000, .i1⟩
  | .hbm, ⟨44, _⟩ => ⟨S_, .i32⟩
  | .hbm, ⟨45, _⟩ => ⟨S640000, .i32⟩
  | .hbm, ⟨46, _⟩ => ⟨S640000, .i32⟩
  | .hbm, ⟨47, _⟩ => ⟨S640000, .i32⟩
  | .hbm, ⟨48, _⟩ => ⟨S640000x1, .i32⟩
  | .hbm, ⟨49, _⟩ => ⟨S640000x128, .bf16⟩
  | .hbm, ⟨50, _⟩ => ⟨S640000x128, .f32⟩
  | .hbm, ⟨51, _⟩ => ⟨S_, .f32⟩
  | .hbm, ⟨52, _⟩ => ⟨S100000x128, .f32⟩
  | .hbm, ⟨53, _⟩ => ⟨S640000x1, .i32⟩
  | .hbm, ⟨54, _⟩ => ⟨S100000x128, .f32⟩
  | .hbm, ⟨55, _⟩ => ⟨S_, .i32⟩
  | .hbm, ⟨56, _⟩ => ⟨S_, .f32⟩
  | .hbm, ⟨57, _⟩ => ⟨S128x128, .f32⟩
  | .hbm, ⟨58, _⟩ => ⟨S_, .i32⟩
  | .hbm, ⟨59, _⟩ => ⟨S_, .f32⟩
  | .hbm, ⟨60, _⟩ => ⟨S128x128, .f32⟩
  | .hbm, ⟨61, _⟩ => ⟨S_, .i32⟩
  | .hbm, ⟨62, _⟩ => ⟨S_, .f32⟩
  | .hbm, ⟨63, _⟩ => ⟨S128, .f32⟩
  | .hbm, ⟨64, _⟩ => ⟨S100000x128, .f32⟩
  | .hbm, ⟨65, _⟩ => ⟨S100000x121, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S128x64, .f32⟩
  | .local _ .vmem, ⟨7, _⟩ => ⟨S128x64, .f32⟩
  | .local _ .vmem, ⟨8, _⟩ => ⟨S128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x128, .bf16⟩
  | .local _ .vmem, ⟨14, _⟩ => ⟨S4000x128, .bf16⟩
  | .local _ .vmem, ⟨15, _⟩ => ⟨S4000x1, .f32⟩
  | .local _ .vmem, ⟨16, _⟩ => ⟨S4000x1, .f32⟩
  | .local _ .vmem, ⟨17, _⟩ => ⟨S128x128, .f32⟩
  | .local _ .vmem, ⟨18, _⟩ => ⟨S128x128, .f32⟩
  | .local _ .vmem, ⟨19, _⟩ => ⟨S128, .f32⟩
  | .local _ .vmem, ⟨20, _⟩ => ⟨S4000x128, .f32⟩
  | .local _ .vmem, ⟨21, _⟩ => ⟨S4000x128, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_c : Ref sig .tc := ⟨.hbm, 26, rfl⟩
abbrev main_v14 : Ref sig .tc := ⟨.hbm, 27, rfl⟩
abbrev main_v15 : Ref sig .tc := ⟨.hbm, 28, rfl⟩
abbrev main_c_3 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_c_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_8 : Ref sig .tc := ⟨.hbm, 55, rfl⟩
abbrev main_call0_v0 : Ref sig .tc := ⟨.hbm, 56, rfl⟩
abbrev main_v37 : Ref sig .tc := ⟨.hbm, 57, rfl⟩
abbrev main_c_9 : Ref sig .tc := ⟨.hbm, 58, rfl⟩
abbrev main_call1_v0 : Ref sig .tc := ⟨.hbm, 59, rfl⟩
abbrev main_v38 : Ref sig .tc := ⟨.hbm, 60, rfl⟩
abbrev main_c_10 : Ref sig .tc := ⟨.hbm, 61, rfl⟩
abbrev main_call2_v0 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S_S100000 : S_.BroadcastsInDim S100000 (![] : Fin 0 → Fin S100000.rank)
  bcast_S640000_S640000x1_0 : S640000.BroadcastsInDim S640000x1 (![0] : Fin 1 → Fin S640000x1.rank)
  bcast_S100000_S100000x1_0 : S100000.BroadcastsInDim S100000x1 (![0] : Fin 1 → Fin S100000x1.rank)
  bitsLt_bf16_f32 : FTy.bits .bf16 < FTy.bits .f32
  bcast_S_S100000x64 : S_.BroadcastsInDim S100000x64 (![] : Fin 0 → Fin S100000x64.rank)
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S4000x1_S4000x64 : S4000x1.Broadcasts S4000x64
  inb_S128x64_S128x64_0_0 : ∀ a, (![0, 0] : Fin 2 → Nat) a + S128x64.size a ≤ S128x64.size a
  h_S128x64 : 0 < S128x64.numel
  transposes_S128x64_p1_0_S64x128 : S128x64.Transposes [1, 0] S64x128
  inb_S128_S128_0 : ∀ a, (![0] : Fin 1 → Nat) a + S128.size a ≤ S128.size a
  h_S128 : 0 < S128.numel
  shapeCasts_S128_S1x128 : S128.ShapeCasts S1x128
  broadcasts_S1x128_S4000x128 : S1x128.Broadcasts S4000x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S_S100000x128 : S_.BroadcastsInDim S100000x128 (![] : Fin 0 → Fin S100000x128.rank)
  pads_S121x128_S128x128_070_000 : S121x128.Pads (![0, 0] : Fin 2 → Nat) ![7, 0] ![0, 0] S128x128
  h_S_ : 0 < S_.numel
  pads_S121_S128_070 : S121.Pads (![0] : Fin 1 → Nat) ![7] ![0] S128
  shapeCasts_S4000x128_S4000x128 : S4000x128.ShapeCasts S4000x128
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  transposes_S128x128_p1_0_S128x128 : S128x128.Transposes [1, 0] S128x128
  shapeCasts_S128_S128 : S128.ShapeCasts S128
  slices_S100000x128_S100000x121_0_0 : S100000x128.Slices ![0, 0] S100000x121
  scatter_S100000_S640000x1_S640000_n_0_0_1_wf : ScatterDims.WF S100000 S640000x1 S640000 [] [0] [0] 1
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  dot_S4000x64_S64x128_S4000x128_1_0_0_1_n_n_wf : DotDims.WF S4000x64 S64x128 S4000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S100000x64.size a
  hwx0_1 : ∀ i : grid0.Coords, EltTy.bits .f32 = 32 ∨ (Rect.block (s := S100000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S100000x1.size a
  hwx0_2 : ∀ i : grid0.Coords, EltTy.bits .f32 = 32 ∨ (Rect.block (s := S100000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x128.size a ≤ S100000x128.size a
  hwx1_1 : ∀ i : grid1.Coords, EltTy.bits .bf16 = 32 ∨ (Rect.block (s := S100000x128) S4000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x1.size a ≤ S100000x1.size a
  hwx1_2 : ∀ i : grid1.Coords, EltTy.bits .f32 = 32 ∨ (Rect.block (s := S100000x1) S4000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .f32 = 32 ∨ (Rect.block (s := S100000x128) S4000x128.size (cc1_transform_6 i) (hinb1_6 i)).WholeWords (EltTy.packing .f32)

variable [Facts₀]

def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v24) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v25) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S4000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S4000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v37) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v38) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v39) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v40) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x640000 : Shape := ⟨2, ![2, 640000]⟩
abbrev S128x64 : Shape := ⟨2, ![128, 64]⟩
abbrev S128 : Shape := ⟨1, ![128]⟩
abbrev S121x128 : Shape := ⟨2, ![121, 128]⟩
abbrev S121 : Shape := ⟨1, ![121]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x64 : Shape := ⟨2, ![640000, 64]⟩
abbrev S100000 : Shape := ⟨1, ![100000]⟩
abbrev S100000x1 : Shape := ⟨2, ![100000, 1]⟩
abbrev S64x128 : Shape := ⟨2, ![64, 128]⟩
abbrev S100000x128 : Shape := ⟨2, ![100000, 128]⟩
abbrev S1x128 : Shape := ⟨2, ![1, 128]⟩
abbrev S640000x128 : Shape := ⟨2, ![640000, 128]⟩
abbrev S128x121 : Shape := ⟨2, ![128, 121]⟩
abbrev S100000x121 : Shape := ⟨2, ![100000, 121]⟩
abbrev S1x121 : Shape := ⟨2, ![1, 121]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x640000, .i32⟩
  | .hbm, ⟨2, _⟩ => ⟨S128x64, .f32⟩
  | .hbm, ⟨3, _⟩ => ⟨S128x64, .f32⟩
  | .hbm, ⟨4, _⟩ => ⟨S128, .f32⟩
  | .hbm, ⟨5, _⟩ => ⟨S121x128, .f32⟩
  | .hbm, ⟨6, _⟩ => ⟨S121x128, .f32⟩
  | .hbm, ⟨7, _⟩ => ⟨S121, .f32⟩
  | .hbm, ⟨8, _⟩ => ⟨S1x640000, .i32⟩
  | .hbm, ⟨9, _⟩ => ⟨S640000, .i32⟩
  | .hbm, ⟨10, _⟩ => ⟨S1x640000, .i32⟩
  | .hbm, ⟨11, _⟩ => ⟨S640000, .i32⟩
  | .hbm, ⟨12, _⟩ => ⟨S_, .i32⟩
  | .hbm, ⟨13, _⟩ => ⟨S640000, .i32⟩
  | .hbm, ⟨14, _⟩ => ⟨S640000, .i1⟩
  | .hbm, ⟨15, _⟩ => ⟨S_, .i32⟩
  | .hbm, ⟨16, _⟩ => ⟨S640000, .i32⟩
  | .hbm, ⟨17, _⟩ => ⟨S640000, .i32⟩
  | .hbm, ⟨18, _⟩ => ⟨S640000, .i32⟩
  | .hbm, ⟨19, _⟩ => ⟨S640000x1, .i32⟩
  | .hbm, ⟨20, _⟩ => ⟨S640000x64, .f32⟩
  | .hbm, ⟨21, _⟩ => ⟨S_, .f32⟩
  | .hbm, ⟨22, _⟩ => ⟨S100000x64, .f32⟩
  | .hbm, ⟨23, _⟩ => ⟨S640000x1, .i32⟩
  | .hbm, ⟨24, _⟩ => ⟨S100000x64, .f32⟩
  | .hbm, ⟨25, _⟩ => ⟨S_, .f32⟩
  | .hbm, ⟨26, _⟩ => ⟨S640000, .f32⟩
  | .hbm, ⟨27, _⟩ => ⟨S_, .f32⟩
  | .hbm, ⟨28, _⟩ => ⟨S100000, .f32⟩
  | .hbm, ⟨29, _⟩ => ⟨S640000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x64, .f32⟩
  | .hbm, ⟨36, _⟩ => ⟨S100000x64, .f32⟩
  | .hbm, ⟨37, _⟩ => ⟨S64x128, .f32⟩
  | .hbm, ⟨38, _⟩ => ⟨S100000x128, .f32⟩
  | .hbm, ⟨39, _⟩ => ⟨S64x128, .f32⟩
  | .hbm, ⟨40, _⟩ => ⟨S100000x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S_, .f32⟩
  | .hbm, ⟨46, _⟩ => ⟨S100000x128, .f32⟩
  | .hbm, ⟨47, _⟩ => ⟨S100000x128, .f32⟩
  | .hbm, ⟨48, _⟩ => ⟨S_, .i32⟩
  | .hbm, ⟨49, _⟩ => ⟨S640000, .i32⟩
  | .hbm, ⟨50, _⟩ => ⟨S640000, .i1⟩
  | .hbm, ⟨51, _⟩ => ⟨S_, .i32⟩
  | .hbm, ⟨52, _⟩ => ⟨S640000, .i32⟩
  | .hbm, ⟨53, _⟩ => ⟨S640000, .i32⟩
  | .hbm, ⟨54, _⟩ => ⟨S640000, .i32⟩
  | .hbm, ⟨55, _⟩ => ⟨S640000x1, .i32⟩
  | .hbm, ⟨56, _⟩ => ⟨S640000x128, .f32⟩
  | .hbm, ⟨57, _⟩ => ⟨S_, .f32⟩
  | .hbm, ⟨58, _⟩ => ⟨S100000x128, .f32⟩
  | .hbm, ⟨59, _⟩ => ⟨S640000x1, .i32⟩
  | .hbm, ⟨60, _⟩ => ⟨S100000x128, .f32⟩
  | .hbm, ⟨61, _⟩ => ⟨S_, .f32⟩
  | .hbm, ⟨62, _⟩ => ⟨S640000, .f32⟩
  | .hbm, ⟨63, _⟩ => ⟨S_, .f32⟩
  | .hbm, ⟨64, _⟩ => ⟨S100000, .f32⟩
  | .hbm, ⟨65, _⟩ => ⟨S640000x1, .i32⟩
  | .hbm, ⟨66, _⟩ => ⟨S100000, .f32⟩
  | .hbm, ⟨67, _⟩ => ⟨S_, .f32⟩
  | .hbm, ⟨68, _⟩ => ⟨S100000, .f32⟩
  | .hbm, ⟨69, _⟩ => ⟨S100000, .f32⟩
  | .hbm, ⟨70, _⟩ => ⟨S100000x1, .f32⟩
  | .hbm, ⟨71, _⟩ => ⟨S100000x128, .f32⟩
  | .hbm, ⟨72, _⟩ => ⟨S100000x128, .f32⟩
  | .hbm, ⟨73, _⟩ => ⟨S128x121, .f32⟩
  | .hbm, ⟨74, _⟩ => ⟨S100000x121, .f32⟩
  | .hbm, ⟨75, _⟩ => ⟨S128x121, .f32⟩
  | .hbm, ⟨76, _⟩ => ⟨S100000x121, .f32⟩
  | .hbm, ⟨77, _⟩ => ⟨S100000x121, .f32⟩
  | .hbm, ⟨78, _⟩ => ⟨S1x121, .f32⟩
  | .hbm, ⟨79, _⟩ => ⟨S100000x121, .f32⟩
  | .hbm, ⟨80, _⟩ => ⟨S100000x121, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_call0_cst : Ref sig .tc := ⟨.hbm, 45, rfl⟩
abbrev main_call0_v0 : Ref sig .tc := ⟨.hbm, 46, rfl⟩
abbrev main_v31 : Ref sig .tc := ⟨.hbm, 47, rfl⟩
abbrev main_c_4 : Ref sig .tc := ⟨.hbm, 48, rfl⟩
abbrev main_v32 : Ref sig .tc := ⟨.hbm, 49, rfl⟩
abbrev main_v33 : Ref sig .tc := ⟨.hbm, 50, rfl⟩
abbrev main_c_5 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  transposes_S128x64_S64x128_1_0 : S128x64.Transposes [1, 0] S64x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  transposes_S121x128_S128x121_1_0 : S121x128.Transposes [1, 0] S128x121
  bcast_S121_S1x121_1 : S121.BroadcastsInDim S1x121 (![1] : Fin 1 → Fin S1x121.rank)
  bcast_S1x121_S100000x121_0_1 : S1x121.BroadcastsInDim S100000x121 (![0, 1] : Fin 2 → Fin S100000x121.rank)
  gather_S100000x64_S640000x1_S640000x64_1_0_n_n_0_1_164_wf : GatherDims.WF S100000x64 S640000x1 S640000x64 [1] [0] [] [0] [] 1 ![1, 64]
  scatter_S100000x64_S640000x1_S640000x64_1_0_0_1_wf : ScatterDims.WF S100000x64 S640000x1 S640000x64 [1] [0] [0] 1
  scatter_S100000_S640000x1_S640000_n_0_0_1_wf : ScatterDims.WF S100000 S640000x1 S640000 [] [0] [0] 1
  dot_S100000x64_S64x128_S100000x128_1_0_0_1_n_n_wf : DotDims.WF S100000x64 S64x128 S100000x128 [1] [0] [0] [1] [] []
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x121_S100000x121_1_0_0_1_n_n_wf : DotDims.WF S100000x128 S128x121 S100000x121 [1] [0] [0] [1] [] []

variable [Facts₀]

def gather_S100000x64_S640000x1_S640000x64_1_0_n_n_0_1_164 : GatherDims S100000x64 S640000x1 S640000x64 where
  offsetDims := [1]
  collapsedSliceDims := [0]
  operandBatchingDims := []
  startIndicesBatchingDims := []
  startIndexMap := [0]
  indexVectorDim := 1
  sliceSizes := ![1, 64]
  wf := gather_S100000x64_S640000x1_S640000x64_1_0_n_n_0_1_164_wf
def scatter_S100000x64_S640000x1_S640000x64_1_0_0_1 : ScatterDims S100000x64 S640000x1 S640000x64 where
  updateWindowDims := [1]
  insertedWindowDims := [0]
  scatterDimsToOperandDims := [0]
  indexVectorDim := 1
  wf := scatter_S100000x64_S640000x1_S640000x64_1_0_0_1_wf
def scatter_S100000_S640000x1_S640000_n_0_0_1 : ScatterDims S100000 S640000x1 S640000 where
  updateWindowDims := []
  insertedWindowDims := [0]
  scatterDimsToOperandDims := [0]
  indexVectorDim := 1
  wf := scatter_S100000_S640000x1_S640000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x121_S100000x121_1_0_0_1_n_n : DotDims S100000x128 S128x121 S100000x121 where
  lhsContracting := [1]
  rhsContracting := [0]
  lhsNonContracting := [0]
  rhsNonContracting := [1]
  lhsBatch := []
  rhsBatch := []
  wf := dot_S100000x128_S128x121_S100000x121_1_0_0_1_n_n_wf

class Facts : Prop extends Facts₀ where

variable [Facts]
-- ==== Proof.KernelRun.lean ====
/-
  The idealized kernel's whole run with its RESULT named.

  @main is ten segments: host operations, the first pallas_call (25 row blocks of 4000 nodes), host
  operations again (the second gather / scatter-add and the zero padding of the layer-2 weights), the
  second pallas_call, and the final column slice.  The generated frame folds the buffer contents through
  these segments (`Gen.W0` … `Gen.W10`) but keeps only "the arguments end unchanged".  Here the same
  launch is read once more at the end, this time keeping the result buffer as well: after every weakly
  fair execution the result array holds `Gen.W10` at the result's reference.
-/
import proofs.«118253_j40578851013001_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result array ends at the last
    boundary's contents `W10` and every argument array ends as launched. -/
theorem run_main : θ_run defs (onTc (τ := τ) (main (F := F))) ⟨m, fun _ => 0, ρ⟩ (fun r => ∀ c : Dev nD,
      r.2.mem ((c.tc : Thread nD τ).loc main_v41) = W10 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v41 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c)⟩)

end Cert.KernelIdeal.WholeRun

end
-- ==== Proof.Body.lean ====
/-
  One row block of a SAGE layer, entry by entry, over the extended reals.

  The kernel body at a grid point holds a block of 4000 nodes.  With `a` the block of neighbour sums,
  `s` the column of reciprocal degrees, `x` the block of the nodes' own features, `Wl`, `Wr` the two weight
  matrices (out × in) and `b` the bias, entry (p, q) of what it stores is

      (∑ₖ (a p k · s p) · Wl q k)  +  (∑ₖ x p k · Wr q k)  +  b q

  followed, in the first layer, by the maximum with zero.  Changes of float format are the identity on
  the extended reals and each `tpu.matmul` into a zero accumulator is the plain sum over the contracted
  axis, so nothing else is left of the body's text.
-/
import proofs.«118253_j40578851013001_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen
open Idealize.ShloMosaic Idealize.ShloMosaic.ValueIdx

variable {α : Type}

/-- A column `[a, 1]` broadcast along the lanes to `[a, b]` reads, at `(p, c)`, the column's entry of row `p`. -/
theorem broadcastTo_col_apply {a b : ℕ} (hb : b ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The two matrix products -/

theorem matmul64_lhs0 (i : S4000x128.Idx) (c : dot_S4000x64_S64x128_S4000x128_1_0_0_1_n_n.contr.Idx) : (dot_S4000x64_S64x128_S4000x128_1_0_0_1_n_n.lhsIdx i c 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem matmul64_lhs1 (i : S4000x128.Idx) (c : dot_S4000x64_S64x128_S4000x128_1_0_0_1_n_n.contr.Idx) : (dot_S4000x64_S64x128_S4000x128_1_0_0_1_n_n.lhsIdx i c 1).val = (c ⟨0, by decide⟩).val :=
  dot_S4000x64_S64x128_S4000x128_1_0_0_1_n_n.lhsIdx_val_of_single rfl i c
theorem matmul64_rhs0 (i : S4000x128.Idx) (c : dot_S4000x64_S64x128_S4000x128_1_0_0_1_n_n.contr.Idx) : (dot_S4000x64_S64x128_S4000x128_1_0_0_1_n_n.rhsIdx i c 0).val = (c ⟨0, by decide⟩).val :=
  dot_S4000x64_S64x128_S4000x128_1_0_0_1_n_n.rhsIdx_val_of_single rfl i c
theorem matmul64_rhs1 (i : S4000x128.Idx) (c : dot_S4000x64_S64x128_S4000x128_1_0_0_1_n_n.contr.Idx) : (dot_S4000x64_S64x128_S4000x128_1_0_0_1_n_n.rhsIdx i c 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- The product `[4000, 64] × [64, 128]` into a zero accumulator: entry (p, q) is the sum over the 64 contracted features. -/
theorem matmul64_apply {φ₁ φ₂ : FTy} (L : FVec Ideal S4000x64 φ₁) (R : FVec Ideal S64x128 φ₂) (p : Fin 4000) (q : Fin 128) :
    matmul dot_S4000x64_S64x128_S4000x128_1_0_0_1_n_n none L R (constant S4000x128 .f32 0x00000000#32) (ix2 p q)
      = ∑ k : Fin 64, L (ix2 p k) * R (ix2 k q) := by
  refine (Ideal.matmul_constant_zero_apply _ _ L R (ix2 p q)).trans ?_
  rw [← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k :=
    funext fun a => Fin.ext (by
      match a with
      | ⟨0, _⟩ => exact matmul64_lhs0 _ _
      | ⟨1, _⟩ => exact (matmul64_lhs1 _ _).trans hk)
  have er : dot_S4000x64_S64x128_S4000x128_1_0_0_1_n_n.rhsIdx (ix2 p q) ((contrEquiv1 dot_S4000x64_S64x128_S4000x128_1_0_0_1_n_n 64 rfl rfl).symm k) = ix2 k q :=
    funext fun a => Fin.ext (by
      match a with
      | ⟨0, _⟩ => exact (matmul64_rhs0 _ _).trans hk
      | ⟨1, _⟩ => exact matmul64_rhs1 _ _)
  rw [el, er]

theorem matmul128_lhs0 (i : S4000x128.Idx) (c : dot_S4000x128_S128x128_S4000x128_1_0_0_1_n_n.contr.Idx) : (dot_S4000x128_S128x128_S4000x128_1_0_0_1_n_n.lhsIdx i c 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem matmul128_lhs1 (i : S4000x128.Idx) (c : dot_S4000x128_S128x128_S4000x128_1_0_0_1_n_n.contr.Idx) : (dot_S4000x128_S128x128_S4000x128_1_0_0_1_n_n.lhsIdx i c 1).val = (c ⟨0, by decide⟩).val :=
  dot_S4000x128_S128x128_S4000x128_1_0_0_1_n_n.lhsIdx_val_of_single rfl i c
theorem matmul128_rhs0 (i : S4000x128.Idx) (c : dot_S4000x128_S128x128_S4000x128_1_0_0_1_n_n.contr.Idx) : (dot_S4000x128_S128x128_S4000x128_1_0_0_1_n_n.rhsIdx i c 0).val = (c ⟨0, by decide⟩).val :=
  dot_S4000x128_S128x128_S4000x128_1_0_0_1_n_n.rhsIdx_val_of_single rfl i c
theorem matmul128_rhs1 (i : S4000x128.Idx) (c : dot_S4000x128_S128x128_S4000x128_1_0_0_1_n_n.contr.Idx) : (dot_S4000x128_S128x128_S4000x128_1_0_0_1_n_n.rhsIdx i c 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product `[4000, 128] × [128, 128]` into a zero accumulator: entry (p, q) is the sum over the 128 contracted features. -/
theorem matmul128_apply {φ₁ φ₂ : FTy} (L : FVec Ideal S4000x128 φ₁) (R : FVec Ideal S128x128 φ₂) (p : Fin 4000) (q : Fin 128) :
    matmul dot_S4000x128_S128x128_S4000x128_1_0_0_1_n_n none L R (constant S4000x128 .f32 0x00000000#32) (ix2 p q)
      = ∑ k : Fin 128, L (ix2 p k) * R (ix2 k q) := by
  refine (Ideal.matmul_constant_zero_apply _ _ L R (ix2 p q)).trans ?_
  rw [← Equiv.sum_comp (contrEquiv1 dot_S4000x128_S128x128_S4000x128_1_0_0_1_n_n 128 rfl rfl).symm]
  refine Finset.sum_congr rfl fun k _ => ?_
  have hk := contrEquiv1_symm_val dot_S4000x128_S128x128_S4000x128_1_0_0_1_n_n 128 rfl rfl k
  have el : dot_S4000x128_S128x128_S4000x128_1_0_0_1_n_n.lhsIdx (ix2 p q) ((contrEquiv1 dot_S4000x128_S128x128_S4000x128_1_0_0_1_n_n 128 rfl rfl).symm k) = ix2 p k :=
    funext fun a => Fin.ext (by
      match a with
      | ⟨0, _⟩ => exact matmul128_lhs0 _ _
      | ⟨1, _⟩ => exact (matmul128_lhs1 _ _).trans hk)
  have er : dot_S4000x128_S128x128_S4000x128_1_0_0_1_n_n.rhsIdx (ix2 p q) ((contrEquiv1 dot_S4000x128_S128x128_S4000x128_1_0_0_1_n_n 128 rfl rfl).symm k) = ix2 k q :=
    funext fun a => Fin.ext (by
      match a with
      | ⟨0, _⟩ => exact (matmul128_rhs0 _ _).trans hk
      | ⟨1, _⟩ => exact matmul128_rhs1 _ _)
  rw [el, er]

/-! ## The two payloads at an entry -/

/-- The first layer's stored block at (p, q): both products, the bias, and the maximum with zero. -/
theorem layer1_entry (s : Vec Ideal S4000x1 .f32) (a x : Vec Ideal S4000x64 .f32) (wl wr : Vec Ideal S128x64 .f32)
    (b : Vec Ideal S128 .f32) (p : Fin 4000) (q : Fin 128) :
    k0_pay1 (F := Ideal) s a x wl wr b (ix2 p q)
      = max (((∑ k : Fin 64, (a (ix2 p k) * s (ix2 p (0 : Fin 1))) * wl (ix2 q k))
          + (∑ k : Fin 64, x (ix2 p k) * wr (ix2 q k))) + b (ix1 q)) (Ideal.ofBits .f32 0x00000000#32) := by
  unfold k0_pay1
  simp only [shapeCast_self]
  rw [truncf_apply, maximumf_apply, addf_apply, addf_apply, matmul64_apply, matmul64_apply, broadcast_apply,
    broadcastTo_1b_ab_apply, shapeCast_a_1a_apply]
  refine congrArg₂ max (congrArg₂ (· + ·) (congrArg₂ (· + ·) (Finset.sum_congr rfl fun k _ => ?_) (Finset.sum_congr rfl fun k _ => ?_)) rfl) rfl
  · rw [truncf_apply, mulf_apply, broadcastTo_col_apply (by decide), transpose_ix2_apply, truncf_apply]
  · rw [truncf_apply, transpose_ix2_apply, truncf_apply]

/-- The second layer's stored block at (p, q): both products and the bias. -/
theorem layer2_entry (s : Vec Ideal S4000x1 .f32) (a : Vec Ideal S4000x128 .f32) (x : Vec Ideal S4000x128 .bf16)
    (wl wr : Vec Ideal S128x128 .f32) (b : Vec Ideal S128 .f32) (p : Fin 4000) (q : Fin 128) :
    k1_pay1 (F := Ideal) s a x wl wr b (ix2 p q)
      = ((∑ k : Fin 128, (a (ix2 p k) * s (ix2 p (0 : Fin 1))) * wl (ix2 q k))
          + (∑ k : Fin 128, x (ix2 p k) * wr (ix2 q k))) + b (ix1 q) := by
  unfold k1_pay1
  simp only [shapeCast_self]
  rw [addf_apply, addf_apply, matmul128_apply, matmul128_apply, broadcastTo_1b_ab_apply, shapeCast_a_1a_apply]
  refine congrArg₂ (· + ·) (congrArg₂ (· + ·) (Finset.sum_congr rfl fun k _ => ?_) (Finset.sum_congr rfl fun k _ => ?_)) rfl
  · rw [truncf_apply, mulf_apply, broadcastTo_col_apply (by decide), transpose_ix2_apply, truncf_apply]
  · rw [transpose_ix2_apply, truncf_apply]

end Cert.KernelIdeal.Body

end
-- ==== Proof.RefRows.lean ====
/-
  The reference, row by row.

  jnp's two SAGE layers on the host, read at one entry of each layer's result.  With `agg` the
  scatter-added neighbour features, `cnt` the neighbour count raised to at least one, `x` a node's own
  features, `Wl`, `Wr` the weights (out × in) and `b` the bias, entry (r, j) of a layer is

      (∑ₖ (agg r k / cnt r) · Wl j k)  +  (∑ₖ x r k · Wr j k)  +  b j

  and the first layer is followed by the maximum with zero.  The gather and the scatter-add stay the
  opaque whole-array functions they are printed as: only the dense part is opened.
-/
import proofs.«118253_j40578851013001_2_alg».proof.Proof.Gen.ReferenceIdeal.Read

noncomputable section

namespace Cert.ReferenceIdeal.Rows

open Cert.ReferenceIdeal Cert.ReferenceIdeal.Read
open Idealize.ShloMosaic Idealize.ShloMosaic.ValueIdx

local macro "idx2" : tactic => `(tactic| exact funext fun a => by match a with | ⟨0, _⟩ => rfl | ⟨1, _⟩ => rfl)
local macro "idx1" : tactic => `(tactic| exact funext fun a => by match a with | ⟨0, _⟩ => rfl)

/-- The neighbour count is computed twice by the reference, once per layer, from the same destinations. -/
theorem count_again (x1 : (⟨S2x640000, .i32⟩ : BufTy).Contents (Elt Ideal)) :
    val_main_v47 (F := Ideal) x1 = val_main_v19 (F := Ideal) x1 := rfl

/-- The hidden layer at node `r`, feature `j`. -/
theorem hidden_entry (x0 : (⟨S100000x64, .f32⟩ : BufTy).Contents (Elt Ideal)) (x1 : (⟨S2x640000, .i32⟩ : BufTy).Contents (Elt Ideal))
    (x2 x3 : (⟨S128x64, .f32⟩ : BufTy).Contents (Elt Ideal)) (x4 : (⟨S128, .f32⟩ : BufTy).Contents (Elt Ideal))
    (r : Fin 100000) (j : Fin 128) :
    val_main_v31 (F := Ideal) x0 x1 x2 x3 x4 (ix2 r j)
      = max (((∑ k : Fin 64, Ideal.div (val_main_v13 (F := Ideal) x0 x1 (ix2 r k)) (val_main_v19 (F := Ideal) x1 (ix1 r)) * x2 (ix2 j k))
          + (∑ k : Fin 64, x0 (ix2 r k) * x3 (ix2 j k))) + x4 (ix1 j)) (Ideal.ofBits .f32 0x00000000#32) := by
  rw [val_main_v31_apply, val_main_v30_apply, val_main_v27_apply, val_main_v24_apply, val_main_v26_apply, val_main_v29_apply,
    val_main_v28_apply, val_main_call0_v0_apply, val_main_call0_cst_apply]
  simp only [Ideal.maximumf_def, Ideal.addf_def, Ideal.ofBits_def]
  have e29 : idx_main_v28 (idx_main_v29 (ix2 r j)) = ix1 j := by idx1
  rw [e29]
  refine congrArg₂ max (congrArg₂ (· + ·) (congrArg₂ (· + ·) (Finset.sum_congr rfl fun k _ => ?_) (Finset.sum_congr rfl fun k _ => ?_)) rfl) rfl
  · have el : lidx_main_v24 (ix2 r j) k = ix2 r k := by idx2
    have er : idx_main_v23 (ridx_main_v24 (ix2 r j) k) = ix2 j k := by idx2
    have ed : idx_main_v20 (idx_main_v21 (ix2 r k)) = ix1 r := by idx1
    rw [val_main_v22_apply, val_main_v21_apply, val_main_v20_apply, val_main_v23_apply, Ideal.hostDivf_def, el, er, ed]
  · have el : lidx_main_v26 (ix2 r j) k = ix2 r k := by idx2
    have er : idx_main_v25 (ridx_main_v26 (ix2 r j) k) = ix2 j k := by idx2
    rw [val_main_v25_apply, el, er]

/-- The result at node `r`, class `j`. -/
theorem out_entry (x0 : (⟨S100000x64, .f32⟩ : BufTy).Contents (Elt Ideal)) (x1 : (⟨S2x640000, .i32⟩ : BufTy).Contents (Elt Ideal))
    (x2 x3 : (⟨S128x64, .f32⟩ : BufTy).Contents (Elt Ideal)) (x4 : (⟨S128, .f32⟩ : BufTy).Contents (Elt Ideal))
    (x5 x6 : (⟨S121x128, .f32⟩ : BufTy).Contents (Elt Ideal)) (x7 : (⟨S121, .f32⟩ : BufTy).Contents (Elt Ideal))
    (r : Fin 100000) (j : Fin 121) :
    val_main_v58 (F := Ideal) x0 x1 x2 x3 x4 x5 x6 x7 (ix2 r j)
      = ((∑ k : Fin 128, Ideal.div (val_main_v41 (F := Ideal) x0 x1 x2 x3 x4 (ix2 r k)) (val_main_v19 (F := Ideal) x1 (ix1 r)) * x5 (ix2 j k))
          + (∑ k : Fin 128, val_main_v31 (F := Ideal) x0 x1 x2 x3 x4 (ix2 r k) * x6 (ix2 j k))) + x7 (ix1 j) := by
  rw [val_main_v58_apply, val_main_v55_apply, val_main_v52_apply, val_main_v54_apply, val_main_v57_apply, val_main_v56_apply]
  simp only [Ideal.addf_def]
  have e57 : idx_main_v56 (idx_main_v57 (ix2 r j)) = ix1 j := by idx1
  rw [e57]
  refine congrArg₂ (· + ·) (congrArg₂ (· + ·) (Finset.sum_congr rfl fun k _ => ?_) (Finset.sum_congr rfl fun k _ => ?_)) rfl
  · have el : lidx_main_v52 (ix2 r j) k = ix2 r k := by idx2
    have er : idx_main_v51 (ridx_main_v52 (ix2 r j) k) = ix2 j k := by idx2
    have ed : idx_main_v48 (idx_main_v49 (ix2 r k)) = ix1 r := by idx1
    rw [val_main_v50_apply, val_main_v49_apply, val_main_v48_apply, val_main_v51_apply, Ideal.hostDivf_def, el, er, ed, count_again]
  · have el : lidx_main_v54 (ix2 r j) k = ix2 r k := by idx2
    have er : idx_main_v53 (ridx_main_v54 (ix2 r j) k) = ix2 j k := by idx2
    rw [val_main_v53_apply, el, er]

end Cert.ReferenceIdeal.Rows

end
-- ==== Proof.Law.lean ====
/-
  The one law that joins the two programs.

  The kernel multiplies a neighbour sum by a reciprocal computed once, `1 / max(deg, 1)`; the reference
  divides the sum by `max(deg, 1)`.  On the extended reals division by a nonzero `y` is the product with
  `y⁻¹`, so `a · (1 / y) = a / y` for EVERY extended real `a` (no finiteness is needed), and a maximum
  with one is never zero.
-/
import Idealize.ShloMosaic.PureOps.Ideal
import Idealize.ShloMosaic.PureOps.Ideal.Laws
import Idealize.ShloMosaic.Lib.IdealHost

noncomputable section

namespace Cert.SageLaw

open Idealize.ShloMosaic

/-- Multiplying by the reciprocal of a nonzero extended real is dividing by it. -/
theorem mul_one_div (a y : EReal) (hy : y ≠ 0) : a * Ideal.div 1 y = Ideal.div a y := by
  unfold Ideal.div
  rw [if_neg hy, if_neg hy, one_mul]

/-- A maximum with one is positive, hence not zero. -/
theorem max_one_ne_zero (d : EReal) : max d 1 ≠ 0 :=
  (lt_of_lt_of_le zero_lt_one (le_max_right d 1)).ne'

/-- The word of `1.0` is the real number one. -/
theorem one_word : Ideal.ofBits .f32 0x3F800000#32 = 1 := Ideal.ofBits_one_f32

end Cert.SageLaw

end
-- ==== Proof.Layer1.lean ====
/-
  The first SAGE layer as the kernel computes it: what the first pallas_call finds in its six input
  arrays, and the array it leaves.

  The host operations before the call build the neighbour sums (a gather of the source nodes' features
  scatter-added at the destinations; the round trip through bf16 is the identity on the extended reals)
  and the column of reciprocals `1 / max(deg, 1)`.  These are the very terms the reference builds, so
  they are named after the reference's stages and never opened.  The call's 25 grid points each write
  rows `4000 t … 4000 t + 3999` of the hidden layer; together the blocks tile the array, which therefore
  ends as the reference's hidden layer, entry by entry.
-/
import proofs.«118253_j40578851013001_2_alg».proof.Proof.Gen.KernelIdeal.Frame
import proofs.«118253_j40578851013001_2_alg».proof.Proof.Body
import proofs.«118253_j40578851013001_2_alg».proof.Proof.RefRows
import proofs.«118253_j40578851013001_2_alg».proof.Proof.Law
import Idealize.ShloMosaic.Lib.Pipeline.Value
import Idealize.ShloMosaic.Lib.StableHlo.Run

set_option maxRecDepth 16384

noncomputable section

namespace Cert.KernelIdeal.Layer1

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Names for the whole arrays -/

/-- The neighbour sums of the input features (the reference's scatter-add of its gather). -/
def agg1 (c : Dev nD) : S100000x64.Idx → EReal :=
  Cert.ReferenceIdeal.Read.val_main_v13 (F := Ideal) (m ((c : Thread nD τ).loc main_arg0)) (m ((c : Thread nD τ).loc main_arg1))

/-- The neighbour count raised to at least one. -/
def cnt (c : Dev nD) : S100000.Idx → EReal :=
  Cert.ReferenceIdeal.Read.val_main_v19 (F := Ideal) (m ((c : Thread nD τ).loc main_arg1))

/-- The column of reciprocals the kernel's host code computes once: `1 / cnt`, one per node. -/
def invDeg (c : Dev nD) : S100000x1.Idx → EReal :=
  broadcastInDim S100000x1 ![0] bcast_S100000_S100000x1_0
    (Host.divf (F := Ideal) (broadcastInDim S100000 ![] bcast_S_S100000 (constant (F := Ideal) S_ .f32 0x3F800000#32)) (cnt m c))

/-- The hidden layer (the reference's first layer after its maximum with zero). -/
def hidden (c : Dev nD) : S100000x128.Idx → EReal :=
  Cert.ReferenceIdeal.Read.val_main_v31 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-! ## What the first call finds in its arrays -/

theorem entry_agg (c : Dev nD) : (V1 m ρ c main_v24 : S100000x64.Idx → EReal) = agg1 m c := by
  show StableHlo.after hostOps0 (W0 m ρ c) (Proc.devRef .tc main_v24) = _
  after_results_simp <;> rfl

theorem entry_inv (c : Dev nD) : (V1 m ρ c main_v12 : S100000x1.Idx → EReal) = invDeg m c := by
  show StableHlo.after hostOps0 (W0 m ρ c) (Proc.devRef .tc main_v12) = _
  after_results_simp <;> rfl

theorem entry_x (c : Dev nD) : V1 m ρ c main_arg0 = m ((c : Thread nD τ).loc main_arg0) := by
  show StableHlo.after hostOps0 (W0 m ρ c) (Proc.devRef .tc main_arg0) = _
  after_results_simp <;> rfl

theorem entry_wl (c : Dev nD) : V1 m ρ c main_arg2 = m ((c : Thread nD τ).loc main_arg2) := by
  show StableHlo.after hostOps0 (W0 m ρ c) (Proc.devRef .tc main_arg2) = _
  after_results_simp <;> rfl

theorem entry_wr (c : Dev nD) : V1 m ρ c main_arg3 = m ((c : Thread nD τ).loc main_arg3) := by
  show StableHlo.after hostOps0 (W0 m ρ c) (Proc.devRef .tc main_arg3) = _
  after_results_simp <;> rfl

theorem entry_b (c : Dev nD) : V1 m ρ c main_arg4 = m ((c : Thread nD τ).loc main_arg4) := by
  show StableHlo.after hostOps0 (W0 m ρ c) (Proc.devRef .tc main_arg4) = _
  after_results_simp <;> rfl

/-! ## The blocks of the first call's windows

A block's coordinate on an axis is always (block index) × (block size) + (coordinate inside the block).
Windows 0, 1, 2 and 6 move with the grid point along the node axis; windows 3, 4, 5 are whole arrays. -/

theorem hz2 : (![0, 0] : Fin 2 → Nat) = fun _ => 0 := funext fun a => by fin_cases a <;> rfl
theorem hz1 : (![0] : Fin 1 → Nat) = fun _ => 0 := funext fun a => by fin_cases a <;> rfl

/-- The printed index maps, decided once over the 25 grid points. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 1) = 0
    ∧ win0_6.index t (0 : Fin 2) = t.val ∧ win0_6.index t (1 : Fin 2) = 0 :=
  (by decide +kernel : ∀ t : Fin grid0.N, _)

section Blocks
variable (V : (c : Dev nD) → (b : Ref sig .tc) → Buf (Elt Ideal) ((c : Thread nD τ).loc b))

theorem blk_agg (c : Dev nD) (t : Fin cfg0.N) (p : Fin 4000) (k : Fin 64) (r : Fin 100000) (hr : r.val = t.val * 4000 + p.val) :
    (iblk0 V c 0 t : Vec Ideal S4000x64 .f32) (ix2 p k) = (V c main_v24 : S100000x64.Idx → EReal) (ix2 r k) := by
  obtain ⟨e0, e1, -⟩ := idx_facts t
  unfold iblk0
  rw [View.read_apply]
  show V c main_v24 _ = V c main_v24 _
  congr 1
  funext a; apply Fin.ext
  match a with
  | ⟨0, _⟩ => show win0_0.index t (0 : Fin 2) * 4000 + 1 * p.val = r.val; omega
  | ⟨1, _⟩ => show win0_0.index t (1 : Fin 2) * 64 + 1 * k.val = k.val; omega

theorem blk_x (c : Dev nD) (t : Fin cfg0.N) (p : Fin 4000) (k : Fin 64) (r : Fin 100000) (hr : r.val = t.val * 4000 + p.val) :
    (iblk0 V c 1 t : Vec Ideal S4000x64 .f32) (ix2 p k) = (V c main_arg0 : S100000x64.Idx → EReal) (ix2 r k) := by
  obtain ⟨-, -, e0, e1, -⟩ := idx_facts t
  unfold iblk0
  rw [View.read_apply]
  show V c main_arg0 _ = V c main_arg0 _
  congr 1
  funext a; apply Fin.ext
  match a with
  | ⟨0, _⟩ => show win0_1.index t (0 : Fin 2) * 4000 + 1 * p.val = r.val; omega
  | ⟨1, _⟩ => show win0_1.index t (1 : Fin 2) * 64 + 1 * k.val = k.val; omega

theorem blk_inv (c : Dev nD) (t : Fin cfg0.N) (p : Fin 4000) (r : Fin 100000) (hr : r.val = t.val * 4000 + p.val) :
    (iblk0 V c 2 t : Vec Ideal S4000x1 .f32) (ix2 p (0 : Fin 1)) = (V c main_v12 : S100000x1.Idx → EReal) (ix2 r (0 : Fin 1)) := by
  obtain ⟨-, -, -, -, e0, e1, -⟩ := idx_facts t
  unfold iblk0
  rw [View.read_apply]
  show V c main_v12 _ = V c main_v12 _
  congr 1
  funext a; apply Fin.ext
  match a with
  | ⟨0, _⟩ => show win0_2.index t (0 : Fin 2) * 4000 + 1 * p.val = r.val; omega
  | ⟨1, _⟩ => show win0_2.index t (1 : Fin 2) * 1 + 1 * (0 : Fin 1).val = (0 : Fin 1).val; omega

theorem blk_wl (c : Dev nD) (t : Fin cfg0.N) (q : Fin 128) (k : Fin 64) :
    (iblk0 V c 3 t : Vec Ideal S128x64 .f32) (ix2 q k) = (V c main_arg2 : S128x64.Idx → EReal) (ix2 q k) := by
  obtain ⟨-, -, -, -, -, -, e0, e1, -⟩ := idx_facts t
  unfold iblk0
  rw [View.read_apply]
  show V c main_arg2 _ = V c main_arg2 _
  congr 1
  funext a; apply Fin.ext
  match a with
  | ⟨0, _⟩ => show win0_3.index t (0 : Fin 2) * 128 + 1 * q.val = q.val; omega
  | ⟨1, _⟩ => show win0_3.index t (1 : Fin 2) * 64 + 1 * k.val = k.val; omega

theorem blk_wr (c : Dev nD) (t : Fin cfg0.N) (q : Fin 128) (k : Fin 64) :
    (iblk0 V c 4 t : Vec Ideal S128x64 .f32) (ix2 q k) = (V c main_arg3 : S128x64.Idx → EReal) (ix2 q k) := by
  obtain ⟨-, -, -, -, -, -, -, -, e0, e1, -⟩ := idx_facts t
  unfold iblk0
  rw [View.read_apply]
  show V c main_arg3 _ = V c main_arg3 _
  congr 1
  funext a; apply Fin.ext
  match a with
  | ⟨0, _⟩ => show win0_4.index t (0 : Fin 2) * 128 + 1 * q.val = q.val; omega
  | ⟨1, _⟩ => show win0_4.index t (1 : Fin 2) * 64 + 1 * k.val = k.val; omega

theorem blk_b (c : Dev nD) (t : Fin cfg0.N) (q : Fin 128) :
    (iblk0 V c 5 t : Vec Ideal S128 .f32) (ix1 q) = (V c main_arg4 : S128.Idx → EReal) (ix1 q) := by
  obtain ⟨-, -, -, -, -, -, -, -, -, -, e0, -⟩ := idx_facts t
  unfold iblk0
  rw [View.read_apply]
  show V c main_arg4 _ = V c main_arg4 _
  congr 1
  funext a; apply Fin.ext
  match a with
  | ⟨0, _⟩ => show win0_5.index t (0 : Fin 1) * 128 + 1 * q.val = q.val; omega

end Blocks

/-! ## The count and its reciprocal at a node -/

/-- The count at a node is a maximum with one. -/
theorem cnt_apply (c : Dev nD) (r : Fin 100000) :
    cnt m c (ix1 r) = max (Cert.ReferenceIdeal.Read.val_main_v17 (F := Ideal) (m ((c : Thread nD τ).loc main_arg1)) (ix1 r)) 1 := by
  unfold cnt
  rw [Cert.ReferenceIdeal.Read.val_main_v19_apply, Cert.ReferenceIdeal.Read.val_main_v18_apply,
    Cert.ReferenceIdeal.Read.val_main_cst_3_apply]
  simp only [Ideal.maximumf_def, Ideal.ofBits_def, Cert.SageLaw.one_word]

theorem cnt_ne_zero (c : Dev nD) (r : Fin 100000) : cnt m c (ix1 r) ≠ 0 := by
  rw [cnt_apply]; exact Cert.SageLaw.max_one_ne_zero _

/-- The reciprocal column at node `r` is `1 / cnt r`. -/
theorem invDeg_apply (c : Dev nD) (r : Fin 100000) : invDeg m c (ix2 r (0 : Fin 1)) = Ideal.div 1 (cnt m c (ix1 r)) := by
  unfold invDeg
  rw [broadcastInDim_apply ![0] bcast_S100000_S100000x1_0 _ (ix2 r (0 : Fin 1)) (ix1 r) (fun a => match a with
    | ⟨0, _⟩ => by show r.val = if (100000 : Nat) = 1 then 0 else r.val; rw [if_neg (by decide)])]
  unfold Host.divf
  simp only [Ideal.hostDivf_def]
  rw [broadcastInDim_apply ![] bcast_S_S100000 _ (ix1 r) ix0 (fun a => a.elim0), constant_apply, Cert.SageLaw.one_word]

/-! ## What a grid point writes back, and the whole array -/

/-- Grid point `t` writes back rows `4000 t …` of the hidden layer. -/
theorem flushed_eq (c : Dev nD) (t : Fin cfg0.N) :
    (dat0 (V1 m ρ) c).flushed 6 t = ((cfg0.win 6).blk t).view.read (Elt Ideal) (hidden m c) := by
  show (cfg0.win 6).cut (grid0.coords t) ((dat0 (V1 m ρ) c).after 6 t) = _
  rw [after0_6]
  unfold out0_6
  rw [View.canon_unit_zero hz2]
  simp only [View.ld_unit_zero (S := S4000x1) hz2, View.ld_unit_zero (S := S4000x64) hz2,
    View.ld_unit_zero (S := S128x64) hz2, View.ld_unit_zero (S := S128) hz1]
  funext y
  obtain ⟨p, q, rfl⟩ : ∃ (p : Fin 4000) (q : Fin 128), y = ix2 p q := ⟨y 0, y 1, eq_ix2 y⟩
  have hN : t.val < 25 := by have h := t.isLt; have e : cfg0.N = 25 := N_0; omega
  obtain ⟨r, hr⟩ : ∃ r : Fin 100000, r.val = t.val * 4000 + p.val := ⟨⟨t.val * 4000 + p.val, by have := p.isLt; omega⟩, rfl⟩
  obtain ⟨-, -, -, -, -, -, -, -, -, -, -, e0, e1⟩ := idx_facts t
  have hemb : ((cfg0.win 6).blk t).view.emb (ix2 p q) = ix2 r q := by
    funext a; apply Fin.ext
    match a with
    | ⟨0, _⟩ => show win0_6.index t (0 : Fin 2) * 4000 + 1 * p.val = r.val; omega
    | ⟨1, _⟩ => show win0_6.index t (1 : Fin 2) * 128 + 1 * q.val = q.val; omega
  rw [View.read_apply, hemb]
  refine (Cert.KernelIdeal.Body.layer1_entry _ _ _ _ _ _ p q).trans ?_
  unfold hidden
  rw [Cert.ReferenceIdeal.Rows.hidden_entry]
  refine congrArg₂ max (congrArg₂ (· + ·) (congrArg₂ (· + ·) (Finset.sum_congr rfl fun k _ => ?_) (Finset.sum_congr rfl fun k _ => ?_)) ?_) rfl
  · rw [blk_agg (V1 m ρ) c t p k r hr, blk_inv (V1 m ρ) c t p r hr, blk_wl (V1 m ρ) c t q k, entry_agg, entry_inv, entry_wl,
      invDeg_apply, Cert.SageLaw.mul_one_div _ _ (cnt_ne_zero m c r)]
    rfl
  · rw [blk_x (V1 m ρ) c t p k r hr, blk_wr (V1 m ρ) c t q k, entry_x, entry_wr]
  · rw [blk_b (V1 m ρ) c t q, entry_b]

/-- An index of the hidden array is in point `t`'s block iff its row is one of the block's 4000. -/
theorem mem_blk (t : Fin cfg0.N) (i : S100000x128.Idx) :
    i ∈ ((cfg0.win 6).blk t).view.set ↔ ∀ a : Fin 2, win0_6.index t a * S4000x128.size a ≤ (i a).val ∧ (i a).val < win0_6.index t a * S4000x128.size a + S4000x128.size a := by
  show i ∈ ((View.whole main_v25).slice (win0_6.rect t)).set ↔ _
  rw [View.set_slice_whole, Rect.mem_set_unit]
  exact Iff.rfl

/-- The 25 blocks tile the array: row `r` is in the block of point `r / 4000`. -/
theorem cover (i : S100000x128.Idx) : ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 25 := N_0
  refine ⟨⟨(i 0).val / 4000, by rw [hN]; omega⟩, flush0_6 _, ?_⟩
  rw [mem_blk]
  obtain ⟨-, -, -, -, -, -, -, -, -, -, -, e0, e1⟩ := idx_facts ⟨(i 0).val / 4000, by rw [hN]; omega⟩
  intro a
  match a with
  | ⟨0, _⟩ =>
    show win0_6.index _ (0 : Fin 2) * 4000 ≤ (i 0).val ∧ (i 0).val < win0_6.index _ (0 : Fin 2) * 4000 + 4000
    rw [e0]; show (i 0).val / 4000 * 4000 ≤ (i 0).val ∧ (i 0).val < (i 0).val / 4000 * 4000 + 4000; omega
  | ⟨1, _⟩ =>
    show win0_6.index _ (1 : Fin 2) * 128 ≤ (i 1).val ∧ (i 1).val < win0_6.index _ (1 : Fin 2) * 128 + 128
    rw [e1]; omega

/-- After the first call its output array is the hidden layer. -/
theorem final (c : Dev nD) : (dat0 (V1 m ρ) c).arrAt 6 cfg0.N = hidden m c :=
  (dat0 (V1 m ρ) c).arrAt_eq_of_cover 6 (hidden m c) (fun t _ => flushed_eq m ρ c t) cover

end Cert.KernelIdeal.Layer1

end
-- ==== Proof.Layer2.lean ====
/-
  The second SAGE layer as the kernel computes it, and the result.

  Between the two calls the host gathers the hidden layer at the source nodes and scatter-adds it at the
  destinations (the second neighbour sums), and pads the three layer-2 parameters with seven zero rows so
  that the second call can work on 128 lanes.  The second call's 25 grid points each write rows
  `4000 t …` of a [100000, 128] array; the result is its first 121 columns.  In those columns the
  padded weights and bias ARE the arguments, so the zero rows are never read, and each entry is the
  reference's: the same two sums and the same bias, the product with `1 / cnt` being the quotient by `cnt`.
-/
import proofs.«118253_j40578851013001_2_alg».proof.Proof.Layer1
import Idealize.ShloMosaic.Lib.KernelVsHost

set_option maxRecDepth 16384

noncomputable section

namespace Cert.KernelIdeal.Layer2

open Cert.KernelIdeal Cert.KernelIdeal.Gen
open Idealize.ShloMosaic Idealize.ShloMosaic.TcCoe Idealize.SL.Sem Idealize.ShloMosaic.ValueIdx
open Idealize.ShloMosaic.Pipeline (Dat)
open Cert.KernelIdeal.Layer1 (hidden invDeg cnt)

variable (m : (ℓ : Loc nD τ sig) → Buf (Elt Ideal) ℓ) (ρ : Dev nD → PrngReg)

/-! ## Names for the whole arrays -/

/-- The neighbour sums of the hidden layer (the reference's second scatter-add of its second gather). -/
def agg2 (c : Dev nD) : S100000x128.Idx → EReal :=
  Cert.ReferenceIdeal.Read.val_main_v41 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The reference's result. -/
def result (c : Dev nD) : S100000x121.Idx → EReal :=
  Cert.ReferenceIdeal.Read.val_main_v58 (F := Ideal) (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))

/-! ## The buffers when the first call has returned -/

theorem left_src (c : Dev nD) : W2 m ρ c (Proc.devRef .tc main_v1)
    = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results_simp <;> rfl)

theorem left_dst (c : Dev nD) : W2 m ρ c (Proc.devRef .tc main_v3)
    = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results_simp <;> rfl)

theorem left_hidden (c : Dev nD) : W2 m ρ c (Proc.devRef .tc main_v25) = hidden m c :=
  (W2_arr m ρ c 6).trans (Cert.KernelIdeal.Layer1.final m ρ c)

theorem left_inv (c : Dev nD) : W2 m ρ c (Proc.devRef .tc main_v12) = invDeg m c :=
  (W2_arr m ρ c 2).trans (((dat0 (V1 m ρ) c).arrAt_in 2 rfl _).trans ((A_eq0 (V1 m ρ) c 2).trans (Cert.KernelIdeal.Layer1.entry_inv m ρ c)))

theorem left_wl (c : Dev nD) : W2 m ρ c (Proc.devRef .tc main_arg5) = m ((c : Thread nD τ).loc main_arg5) :=
  (W2_of_ne m ρ c main_arg5 (by decide)).trans (by
    show StableHlo.after hostOps0 (W0 m ρ c) (Proc.devRef .tc main_arg5) = _
    after_results_simp <;> rfl)

theorem left_wr (c : Dev nD) : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem left_b (c : Dev nD) : W2 m ρ c (Proc.devRef .tc main_arg7) = m ((c : Thread nD τ).loc main_arg7) :=
  (W2_of_ne m ρ c main_arg7 (by decide)).trans (by
    show StableHlo.after hostOps0 (W0 m ρ c) (Proc.devRef .tc main_arg7) = _
    after_results_simp <;> rfl)

/-! ## What the second call finds in its arrays -/

theorem entry_agg (c : Dev nD) : (V8 m ρ c main_v36 : S100000x128.Idx → EReal) = agg2 m c := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v36) = _
  after_results_simp
  rw [left_src, left_dst, left_hidden]
  rfl

theorem entry_h (c : Dev nD) : (V8 m ρ c main_v25 : S100000x128.Idx → EReal) = hidden m c := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v25) = _
  after_results_simp
  exact left_hidden m ρ c

theorem entry_inv (c : Dev nD) : (V8 m ρ c main_v12 : S100000x1.Idx → EReal) = invDeg m c := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v12) = _
  after_results_simp
  exact left_inv m ρ c

/-- The padding value: the integer zero converted to a float (never read below). -/
abbrev padv : S_.Idx → EReal := sitofp (F := Ideal) .f32 (constantI S_ 32 0#32)

theorem entry_wl (c : Dev nD) : (V8 m ρ c main_v37 : S128x128.Idx → EReal)
    = pad S128x128 ![0, 0] ![7, 0] ![0, 0] (m ((c : Thread nD τ).loc main_arg5)) padv pads_S121x128_S128x128_070_000 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v37) = _
  after_results_simp
  rw [left_wl]
  rfl

theorem entry_wr (c : Dev nD) : (V8 m ρ c main_v38 : S128x128.Idx → EReal)
    = pad S128x128 ![0, 0] ![7, 0] ![0, 0] (m ((c : Thread nD τ).loc main_arg6)) padv pads_S121x128_S128x128_070_000 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v38) = _
  after_results_simp
  rw [left_wr]
  rfl

theorem entry_b (c : Dev nD) : (V8 m ρ c main_v39 : S128.Idx → EReal)
    = pad S128 ![0] ![7] ![0] (m ((c : Thread nD τ).loc main_arg7)) padv pads_S121_S128_070 h_S_ := by
  show StableHlo.after hostOps1_5 (StableHlo.after hostOps1_4 (StableHlo.after hostOps1_3 (StableHlo.after hostOps1_2
    (StableHlo.after hostOps1_1 (StableHlo.after hostOps1 (W2 m ρ c)))))) (Proc.devRef .tc main_v39) = _
  after_results_simp
  rw [left_b]
  rfl

/-- A padded weight matrix at a row below 121 is the argument there. -/
theorem pad_row (w : S121x128.Idx → EReal) (j : Fin 121) (jj : Fin 128) (hj : jj.val = j.val) (k : Fin 128) :
    pad S128x128 ![0, 0] ![7, 0] ![0, 0] w padv pads_S121x128_S128x128_070_000 h_S_ (ix2 jj k) = w (ix2 j k) :=
  pad_apply_of_inside ![0, 0] ![7, 0] ![0, 0] w padv pads_S121x128_S128x128_070_000 h_S_ (ix2 jj k) (ix2 j k) (fun a => by
    match a with
    | ⟨0, _⟩ => show jj.val = 0 + j.val * (0 + 1); omega
    | ⟨1, _⟩ => show k.val = 0 + k.val * (0 + 1); omega)

/-- The padded bias at a position below 121 is the argument there. -/
theorem pad_bias (b : S121.Idx → EReal) (j : Fin 121) (jj : Fin 128) (hj : jj.val = j.val) :
    pad S128 ![0] ![7] ![0] b padv pads_S121_S128_070 h_S_ (ix1 jj) = b (ix1 j) :=
  pad_apply_of_inside ![0] ![7] ![0] b padv pads_S121_S128_070 h_S_ (ix1 jj) (ix1 j) (fun a => by
    match a with
    | ⟨0, _⟩ => show jj.val = 0 + j.val * (0 + 1); omega)

/-! ## The blocks of the second call's windows -/

/-- The printed index maps, decided once over the 25 grid points. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b))

theorem blk_agg (c : Dev nD) (t : Fin cfg1.N) (p : Fin 4000) (k : Fin 128) (r : Fin 100000) (hr : r.val = t.val * 4000 + p.val) :
    (iblk1 V c 0 t : Vec Ideal S4000x128 .f32) (ix2 p k) = (V c main_v36 : S100000x128.Idx → EReal) (ix2 r k) := by
  obtain ⟨e0, e1, -⟩ := idx_facts t
  unfold iblk1
  rw [View.read_apply]
  show V c main_v36 _ = V c main_v36 _
  congr 1
  funext a; apply Fin.ext
  match a with
  | ⟨0, _⟩ => show win1_0.index t (0 : Fin 2) * 4000 + 1 * p.val = r.val; omega
  | ⟨1, _⟩ => show win1_0.index t (1 : Fin 2) * 128 + 1 * k.val = k.val; omega

theorem blk_h (c : Dev nD) (t : Fin cfg1.N) (p : Fin 4000) (k : Fin 128) (r : Fin 100000) (hr : r.val = t.val * 4000 + p.val) :
    (iblk1 V c 1 t : Vec Ideal S4000x128 .bf16) (ix2 p k) = (V c main_v25 : S100000x128.Idx → EReal) (ix2 r k) := by
  obtain ⟨-, -, e0, e1, -⟩ := idx_facts t
  unfold iblk1
  rw [View.read_apply]
  show V c main_v25 _ = V c main_v25 _
  congr 1
  funext a; apply Fin.ext
  match a with
  | ⟨0, _⟩ => show win1_1.index t (0 : Fin 2) * 4000 + 1 * p.val = r.val; omega
  | ⟨1, _⟩ => show win1_1.index t (1 : Fin 2) * 128 + 1 * k.val = k.val; omega

theorem blk_inv (c : Dev nD) (t : Fin cfg1.N) (p : Fin 4000) (r : Fin 100000) (hr : r.val = t.val * 4000 + p.val) :
    (iblk1 V c 2 t : Vec Ideal S4000x1 .f32) (ix2 p (0 : Fin 1)) = (V c main_v12 : S100000x1.Idx → EReal) (ix2 r (0 : Fin 1)) := by
  obtain ⟨-, -, -, -, e0, e1, -⟩ := idx_facts t
  unfold iblk1
  rw [View.read_apply]
  show V c main_v12 _ = V c main_v12 _
  congr 1
  funext a; apply Fin.ext
  match a with
  | ⟨0, _⟩ => show win1_2.index t (0 : Fin 2) * 4000 + 1 * p.val = r.val; omega
  | ⟨1, _⟩ => show win1_2.index t (1 : Fin 2) * 1 + 1 * (0 : Fin 1).val = (0 : Fin 1).val; omega

theorem blk_wl (c : Dev nD) (t : Fin cfg1.N) (q : Fin 128) (k : Fin 128) :
    (iblk1 V c 3 t : Vec Ideal S128x128 .f32) (ix2 q k) = (V c main_v37 : S128x128.Idx → EReal) (ix2 q k) := by
  obtain ⟨-, -, -, -, -, -, e0, e1, -⟩ := idx_facts t
  unfold iblk1
  rw [View.read_apply]
  show V c main_v37 _ = V c main_v37 _
  congr 1
  funext a; apply Fin.ext
  match a with
  | ⟨0, _⟩ => show win1_3.index t (0 : Fin 2) * 128 + 1 * q.val = q.val; omega
  | ⟨1, _⟩ => show win1_3.index t (1 : Fin 2) * 128 + 1 * k.val = k.val; omega

theorem blk_wr (c : Dev nD) (t : Fin cfg1.N) (q : Fin 128) (k : Fin 128) :
    (iblk1 V c 4 t : Vec Ideal S128x128 .f32) (ix2 q k) = (V c main_v38 : S128x128.Idx → EReal) (ix2 q k) := by
  obtain ⟨-, -, -, -, -, -, -, -, e0, e1, -⟩ := idx_facts t
  unfold iblk1
  rw [View.read_apply]
  show V c main_v38 _ = V c main_v38 _
  congr 1
  funext a; apply Fin.ext
  match a with
  | ⟨0, _⟩ => show win1_4.index t (0 : Fin 2) * 128 + 1 * q.val = q.val; omega
  | ⟨1, _⟩ => show win1_4.index t (1 : Fin 2) * 128 + 1 * k.val = k.val; omega

theorem blk_b (c : Dev nD) (t : Fin cfg1.N) (q : Fin 128) :
    (iblk1 V c 5 t : Vec Ideal S128 .f32) (ix1 q) = (V c main_v39 : S128.Idx → EReal) (ix1 q) := by
  obtain ⟨-, -, -, -, -, -, -, -, -, -, e0, -⟩ := idx_facts t
  unfold iblk1
  rw [View.read_apply]
  show V c main_v39 _ = V c main_v39 _
  congr 1
  funext a; apply Fin.ext
  match a with
  | ⟨0, _⟩ => show win1_5.index t (0 : Fin 1) * 128 + 1 * q.val = q.val; omega

end Blocks

/-! ## What a grid point writes back, and the whole 128-lane array -/

/-- The second call's output over all 128 lanes: the layer's formula with the PADDED parameters as the
    call finds them. -/
def lanes (c : Dev nD) : S100000x128.Idx → EReal := fun i =>
  ((∑ k : Fin 128, (agg2 m c (ix2 (i 0) k) * invDeg m c (ix2 (i 0) (0 : Fin 1))) * (V8 m ρ c main_v37 : S128x128.Idx → EReal) (ix2 (i 1) k))
    + (∑ k : Fin 128, hidden m c (ix2 (i 0) k) * (V8 m ρ c main_v38 : S128x128.Idx → EReal) (ix2 (i 1) k)))
    + (V8 m ρ c main_v39 : S128.Idx → EReal) (ix1 (i 1))

theorem lanes_apply (c : Dev nD) (r : Fin 100000) (q : Fin 128) : lanes m ρ c (ix2 r q)
    = ((∑ k : Fin 128, (agg2 m c (ix2 r k) * invDeg m c (ix2 r (0 : Fin 1))) * (V8 m ρ c main_v37 : S128x128.Idx → EReal) (ix2 q k))
      + (∑ k : Fin 128, hidden m c (ix2 r k) * (V8 m ρ c main_v38 : S128x128.Idx → EReal) (ix2 q k)))
      + (V8 m ρ c main_v39 : S128.Idx → EReal) (ix1 q) := rfl

/-- Grid point `t` writes back rows `4000 t …` of `lanes`. -/
theorem flushed_eq (c : Dev nD) (t : Fin cfg1.N) :
    (dat1 (V8 m ρ) c).flushed 6 t = ((cfg1.win 6).blk t).view.read (Elt Ideal) (lanes m ρ c) := by
  show (cfg1.win 6).cut (grid1.coords t) ((dat1 (V8 m ρ) c).after 6 t) = _
  rw [after1_6]
  unfold out1_6
  rw [View.canon_unit_zero Cert.KernelIdeal.Layer1.hz2]
  simp only [View.ld_unit_zero (S := S4000x1) Cert.KernelIdeal.Layer1.hz2, View.ld_unit_zero (S := S4000x128) Cert.KernelIdeal.Layer1.hz2,
    View.ld_unit_zero (S := S128x128) Cert.KernelIdeal.Layer1.hz2, View.ld_unit_zero (S := S128) Cert.KernelIdeal.Layer1.hz1]
  funext y
  obtain ⟨p, q, rfl⟩ : ∃ (p : Fin 4000) (q : Fin 128), y = ix2 p q := ⟨y 0, y 1, eq_ix2 y⟩
  have hN : t.val < 25 := by have h := t.isLt; have e : cfg1.N = 25 := N_1; omega
  obtain ⟨r, hr⟩ : ∃ r : Fin 100000, r.val = t.val * 4000 + p.val := ⟨⟨t.val * 4000 + p.val, by have := p.isLt; omega⟩, rfl⟩
  obtain ⟨-, -, -, -, -, -, -, -, -, -, -, e0, e1⟩ := idx_facts t
  have hemb : ((cfg1.win 6).blk t).view.emb (ix2 p q) = ix2 r q := by
    funext a; apply Fin.ext
    match a with
    | ⟨0, _⟩ => show win1_6.index t (0 : Fin 2) * 4000 + 1 * p.val = r.val; omega
    | ⟨1, _⟩ => show win1_6.index t (1 : Fin 2) * 128 + 1 * q.val = q.val; omega
  rw [View.read_apply, hemb, lanes_apply]
  refine (Cert.KernelIdeal.Body.layer2_entry _ _ _ _ _ _ p q).trans ?_
  refine congrArg₂ (· + ·) (congrArg₂ (· + ·) (Finset.sum_congr rfl fun k _ => ?_) (Finset.sum_congr rfl fun k _ => ?_)) ?_
  · rw [blk_agg (V8 m ρ) c t p k r hr, blk_inv (V8 m ρ) c t p r hr, blk_wl (V8 m ρ) c t q k, entry_agg, entry_inv]
  · rw [blk_h (V8 m ρ) c t p k r hr, blk_wr (V8 m ρ) c t q k, entry_h]
  · rw [blk_b (V8 m ρ) c t q]

/-- An index of the 128-lane array is in point `t`'s block iff its row is one of the block's 4000. -/
theorem mem_blk (t : Fin cfg1.N) (i : S100000x128.Idx) :
    i ∈ ((cfg1.win 6).blk t).view.set ↔ ∀ a : Fin 2, win1_6.index t a * S4000x128.size a ≤ (i a).val ∧ (i a).val < win1_6.index t a * S4000x128.size a + S4000x128.size a := by
  show i ∈ ((View.whole main_v40).slice (win1_6.rect t)).set ↔ _
  rw [View.set_slice_whole, Rect.mem_set_unit]
  exact Iff.rfl

/-- The 25 blocks tile the array. -/
theorem cover (i : S100000x128.Idx) : ∃ t : Fin cfg1.N, (cfg1.win 6).flush t = true ∧ i ∈ ((cfg1.win 6).blk t).view.set := by
  have hi0 : (i 0).val < 100000 := (i 0).isLt
  have hi1 : (i 1).val < 128 := (i 1).isLt
  have hN : cfg1.N = 25 := N_1
  refine ⟨⟨(i 0).val / 4000, by rw [hN]; omega⟩, flush1_6 _, ?_⟩
  rw [mem_blk]
  obtain ⟨-, -, -, -, -, -, -, -, -, -, -, e0, e1⟩ := idx_facts ⟨(i 0).val / 4000, by rw [hN]; omega⟩
  intro a
  match a with
  | ⟨0, _⟩ =>
    show win1_6.index _ (0 : Fin 2) * 4000 ≤ (i 0).val ∧ (i 0).val < win1_6.index _ (0 : Fin 2) * 4000 + 4000
    rw [e0]; show (i 0).val / 4000 * 4000 ≤ (i 0).val ∧ (i 0).val < (i 0).val / 4000 * 4000 + 4000; omega
  | ⟨1, _⟩ =>
    show win1_6.index _ (1 : Fin 2) * 128 ≤ (i 1).val ∧ (i 1).val < win1_6.index _ (1 : Fin 2) * 128 + 128
    rw [e1]; omega

/-- After the second call its output array is `lanes`. -/
theorem final (c : Dev nD) : (dat1 (V8 m ρ) c).arrAt 6 cfg1.N = lanes m ρ c :=
  (dat1 (V8 m ρ) c).arrAt_eq_of_cover 6 (lanes m ρ c) (fun t _ => flushed_eq m ρ c t) cover

/-! ## The result: the first 121 lanes -/

/-- In a lane below 121, `lanes` is the reference's result. -/
theorem lanes_result (c : Dev nD) (r : Fin 100000) (j : Fin 121) (jj : Fin 128) (hj : jj.val = j.val) :
    lanes m ρ c (ix2 r jj) = result m c (ix2 r j) := by
  rw [lanes_apply]
  unfold result
  rw [Cert.ReferenceIdeal.Rows.out_entry]
  refine congrArg₂ (· + ·) (congrArg₂ (· + ·) (Finset.sum_congr rfl fun k _ => ?_) (Finset.sum_congr rfl fun k _ => ?_)) ?_
  · rw [entry_wl, pad_row _ j jj hj k, Cert.KernelIdeal.Layer1.invDeg_apply, Cert.SageLaw.mul_one_div _ _ (Cert.KernelIdeal.Layer1.cnt_ne_zero m c r)]
    rfl
  · rw [entry_wr, pad_row _ j jj hj k]
    rfl
  · rw [entry_b, pad_bias _ j jj hj]

/-- The result array after the run is the reference's result. -/
theorem result_eq (c : Dev nD) : (W10 m ρ c (Proc.devRef .tc main_v41) : S100000x121.Idx → EReal) = result m c := by
  have hs : W10 m ρ c (Proc.devRef .tc main_v41)
      = extractStridedSlice S100000x121 ![0, 0] (lanes m ρ c) slices_S100000x128_S100000x121_0_0 := by
    show StableHlo.after hostOps2 (W9 m ρ c) (Proc.devRef .tc main_v41) = _
    after_results_simp
    rw [show W9 m ρ c (Proc.devRef .tc main_v40) = lanes m ρ c from (W9_arr m ρ c 6).trans (final m ρ c)]
  rw [hs]
  funext i
  obtain ⟨r, j, rfl⟩ : ∃ (r : Fin 100000) (j : Fin 121), i = ix2 r j := ⟨i 0, i 1, eq_ix2 i⟩
  have hj : j.val < 128 := by have := j.isLt; omega
  rw [extractStridedSlice_apply ![0, 0] (lanes m ρ c) slices_S100000x128_S100000x121_0_0 (ix2 r j) (ix2 r (⟨j.val, hj⟩ : Fin 128)) (fun a => by
    match a with
    | ⟨0, _⟩ => show r.val = 0 + r.val; omega
    | ⟨1, _⟩ => show j.val = 0 + j.val; omega)]
  exact lanes_result m ρ c r j ⟨j.val, hj⟩ rfl

end Cert.KernelIdeal.Layer2

end
-- ==== Proof.lean ====
/-
  GraphSAGE, two SAGEConv layers with a ReLU between, on 100000 nodes and 640000 edges: a Pallas kernel
  per layer for the dense part (tiled over the node axis in 25 blocks of 4000, bf16 matrix-unit inputs,
  the mean's division fused in as a product with a reciprocal computed once, layer 2 padded to 128 lanes)
  against plain jnp.

  On the extended reals both programs compute, for every node `r` and output feature `j` of a layer,

      (∑ₖ (agg r k / cnt r) · Wl j k) + (∑ₖ x r k · Wr j k) + b j,

  where `agg` is the scatter-added gather of the neighbours' features and `cnt = max(deg, 1)`; the first
  layer takes the maximum with zero.  The differences between the two texts all vanish there: changes of
  float format are the identity; a `tpu.matmul` into a zero accumulator and the host's `dot_general` are
  the same sum; `a · (1 / cnt) = a / cnt` because `cnt ≥ 1` is not zero (true for every extended real `a`,
  so the finiteness precondition is not used); the rows and the bias entries added by the padding lie in
  lanes 121 … 127, which the final slice drops.  The gather and the scatter-add are the same opaque
  whole-array functions of the same operands on both sides and are never opened.

  The kernel side is read off the generated frame: each call's output array is the fold of its 25
  write-backs, each write-back is a block of one whole-array function, and the blocks tile the array.
  The reference side is its generated run, read one operation at a time.
-/
import proofs.«118253_j40578851013001_2_alg».proof.Defs
import proofs.«118253_j40578851013001_2_alg».proof.Proof.Gen.Kernel
import proofs.«118253_j40578851013001_2_alg».proof.Proof.Gen.Kernel.Skeleton
import proofs.«118253_j40578851013001_2_alg».proof.Proof.Gen.Kernel.Launch
import proofs.«118253_j40578851013001_2_alg».proof.Proof.Gen.Kernel.Points
import proofs.«118253_j40578851013001_2_alg».proof.Proof.Gen.Kernel.Frame
import proofs.«118253_j40578851013001_2_alg».proof.Proof.Gen.KernelIdeal
import proofs.«118253_j40578851013001_2_alg».proof.Proof.Gen.KernelIdeal.Skeleton
import proofs.«118253_j40578851013001_2_alg».proof.Proof.Gen.KernelIdeal.Launch
import proofs.«118253_j40578851013001_2_alg».proof.Proof.Gen.KernelIdeal.Points
import proofs.«118253_j40578851013001_2_alg».proof.Proof.Gen.KernelIdeal.Frame
import proofs.«118253_j40578851013001_2_alg».proof.Proof.Gen.ReferenceIdeal
import proofs.«118253_j40578851013001_2_alg».proof.Proof.Gen.ReferenceIdeal.Run
import proofs.«118253_j40578851013001_2_alg».proof.Proof.Gen.ReferenceIdeal.Read
import proofs.«118253_j40578851013001_2_alg».proof.Proof.Gen.Pre_finite_inputs
import proofs.«118253_j40578851013001_2_alg».proof.Proof.KernelRun
import proofs.«118253_j40578851013001_2_alg».proof.Proof.Layer2
import Idealize.ShloMosaic.Adequacy
import Idealize.ShloMosaic.Init

noncomputable section

namespace Cert.Proof

open Idealize.ShloMosaic Idealize.SL.Sem

/-- The printed kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a host program: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's result term of the (agreeing) arguments. -/
theorem algebraic : Cert.algebraic_KernelIdeal_ReferenceIdeal := by
  intro m ρ m' ρ' _ hagree
  refine ⟨fun c => Cert.KernelIdeal.Layer2.result m c, ?_, ?_⟩
  · exact (θ_run Cert.KernelIdeal.defs _ _).mono
      (fun _ h c => ⟨(h c).1.trans (Cert.KernelIdeal.Layer2.result_eq m ρ c), (h c).2⟩)
      (Cert.KernelIdeal.WholeRun.run_main m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v58_eq, h0, h1, h2, h3, h4, h5, h6, h7]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
